-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : FVec F S100000 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_cst_8 : FVec F S_ .f32 := constant S_ .f32 0x00000000#32
  let main_v24 : FVec F S100000 .f32 := broadcastInDim S100000 ![] bcast_S_S100000 main_cst_8
  let main_v25 : IVec S100000 1 := cmpf .une main_arg2 main_v24
  let main_c_9 : IVec S_ 1 := constantI S_ 1 1#1
  let main_v26 : IVec S_ 1 := (fun x v => Host.reduce IntOp.andi x v reducesTo_S100000_S_d0 h_S_) main_v25 main_c_9
  let main_v27 : IVec S_ 1 := andi main_v23 main_v26
  main_v27

def fn {F : FTy → Type} [FloatOps F] (main_arg0 : FVec F S100000x128 .f32) (main_arg1 : FVec F S100000 .f32) (main_arg2 : FVec F S100000 .f32) (main_arg3 : IVec S1600000 32) (main_arg4 : IVec S1600000 32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_v13 main_v16
-- ==== Kernel.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 40
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S100000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S100000, .f32⟩
  | .hbm, ⟨9, _⟩ => ⟨S100000, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x1, .f32⟩
  | .hbm, ⟨36, _⟩ => ⟨S1x128, .f32⟩
  | .hbm, ⟨37, _⟩ => ⟨S128x128, .f32⟩
  | .hbm, ⟨38, _⟩ => ⟨S128x128, .bf16⟩
  | .hbm, ⟨39, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .bf16⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  transposes_S128x128_S128x128_1_0 : S128x128.Transposes [1, 0] S128x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S100000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128, .f32⟩
  | .hbm, ⟨7, _⟩ => ⟨S100000x1, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostPrefix.lean ====
/-
  What the kernel's region finds in its four input arrays.

  Before the region the program computes, on the host, the aggregated messages (features gathered at the edges'
  source nodes, times the gathered reciprocals of the source nodes' outgoing norms, summed into the edges' destination
  nodes), the incoming norms reshaped to a column, the weights transposed and narrowed, and the bias reshaped to a row.
  Each of the four arrays the region reads is that composition of host operations applied to the argument arrays.
-/
import proofs.«150497_j22565758173846_2_alg».proof.Proof.Gen.KernelIdeal.Frame
import Idealize.ShloMosaic.Lib.StableHlo.Run
import Idealize.ShloMosaic.PureOps.Ideal

noncomputable section

namespace Cert.GcnKernel

open Cert.KernelIdeal Cert.KernelIdeal.Gen Idealize.ShloMosaic Idealize.ShloMosaic.TcCoe Idealize.SL.Sem
  Idealize.ShloMosaic.StableHlo

/-- The column of start indices an integer vector of edge endpoints gives: a negative entry counts from the end
    (100000 is added to it), and the vector becomes a 1600000-by-1 column. -/
def indexColumn (x3 : IVec S1600000 32) : IVec S1600000x1 32 :=
  broadcastInDim S1600000x1 ![0] bcast_S1600000_S1600000x1_0
    (select (cmpi .slt x3 (broadcastInDim S1600000 ![] bcast_S_S1600000 (constantI S_ 32 0#32)))
      (addi x3 (broadcastInDim S1600000 ![] bcast_S_S1600000 (constantI S_ 32 100000#32))) x3)

/-- The kernel's messages: gathered features times gathered reciprocal norms, spread over the 128 features. -/
def messages (x0 : FVec Ideal S100000x128 .f32) (x2 : FVec Ideal S100000 .f32) (x3 : IVec S1600000 32) :
    FVec Ideal S1600000x128 .f32 :=
  mulf (Host.gather gather_S100000x128_S1600000x1_S1600000x128_1_0_n_n_0_1_1128 x0 (indexColumn x3))
    (broadcastInDim S1600000x128 ![0, 1] bcast_S1600000x1_S1600000x128_0_1
      (broadcastInDim S1600000x1 ![0] bcast_S1600000_S1600000x1_0
        (Host.gather gather_S100000_S1600000x1_S1600000_n_0_n_n_0_1_1
          (Host.divf (broadcastInDim S100000 ![] bcast_S_S100000 (constant (F := Ideal) S_ .f32 0x3F800000#32)) x2)
          (indexColumn x3))))

/-- The kernel's aggregated array: the messages summed into their destination nodes, from zero. -/
def aggregated (x0 : FVec Ideal S100000x128 .f32) (x2 : FVec Ideal S100000 .f32) (x3 x4 : IVec S1600000 32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x4)
    (messages x0 x2 x3)

variable (m : (ℓ : Loc nD τ sig) → Buf (Elt Ideal) ℓ)

set_option maxHeartbeats 4000000 in
/-- Window 0's array: the aggregated messages. -/
theorem V_aggregated (c : Dev nD) :
    (V m c main_v21 : S100000x128.Idx → EReal)
      = aggregated (m ((c.tc : Thread nD τ).loc main_arg0)) (m ((c.tc : Thread nD τ).loc main_arg2))
          (m ((c.tc : Thread nD τ).loc main_arg3)) (m ((c.tc : Thread nD τ).loc main_arg4)) := by
  dsimp only [Gen.V, Gen.hostOps0]; after_results_simp <;> rfl

set_option maxHeartbeats 4000000 in
/-- Window 1's array: the incoming norms as a column. -/
theorem V_normColumn (c : Dev nD) :
    (V m c main_v22 : S100000x1.Idx → EReal)
      = shapeCast S100000x1 (m ((c.tc : Thread nD τ).loc main_arg1)) shapeCasts_S100000_S100000x1 := by
  dsimp only [Gen.V, Gen.hostOps0]; after_results_simp <;> rfl

set_option maxHeartbeats 4000000 in
/-- Window 2's array: the weights transposed and narrowed. -/
theorem V_weightsT (c : Dev nD) :
    (V m c main_v25 : S128x128.Idx → EReal)
      = (truncf .bf16 (transpose S128x128 [1, 0] (m ((c.tc : Thread nD τ).loc main_arg5)) transposes_S128x128_S128x128_1_0)
          bitsLt_bf16_f32 : FVec Ideal S128x128 .bf16) := by
  dsimp only [Gen.V, Gen.hostOps0]; after_results_simp <;> rfl

set_option maxHeartbeats 4000000 in
/-- Window 3's array: the bias as a row. -/
theorem V_biasRow (c : Dev nD) :
    (V m c main_v23 : S1x128.Idx → EReal)
      = shapeCast S1x128 (m ((c.tc : Thread nD τ).loc main_arg6)) shapeCasts_S128_S1x128 := by
  dsimp only [Gen.V, Gen.hostOps0]; after_results_simp <;> rfl

end Cert.GcnKernel

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payload.lean ====
/-
  What the kernel's body stores, read at one entry.

  At a grid point the body holds a block x0 of 4000 rows of aggregated messages, the column x1 of those rows' incoming
  norms, the transposed weights x2 (x2[k, q] = W[q, k]) and the bias row x3. It divides each row by its norm, multiplies
  by the weights on the matrix unit from a zero accumulator, and adds the bias. Read at the exact (extended real)
  values of floats, where rounding a factor to a narrower format is the identity, the stored value at row p and output
  feature q is

      (sum over k < 128 of (x0[p, k] / x1[p, 0]) * x2[k, q]) + x3[0, q].
-/
import proofs.«150497_j22565758173846_2_alg».proof.Proof.Gen.KernelIdeal.Skeleton
import proofs.«150497_j22565758173846_2_alg».proof.Proof.LibPlainContract
import proofs.«150497_j22565758173846_2_alg».proof.Proof.LibKeepdims
import Idealize.ShloMosaic.Lib.Pipeline.Value
import Idealize.ShloMosaic.Lib.ValueLayout

noncomputable section

namespace Cert.GcnPayload

open Idealize.ShloMosaic Idealize.ShloMosaic.ValueIdx Cert.KernelIdeal

/-- The body's stored value at (p, q). -/
theorem stored_apply (x0 : FVec Ideal S4000x128 .f32) (x1 : FVec Ideal S4000x1 .f32) (x2 : FVec Ideal S128x128 .bf16)
    (x3 : FVec Ideal S1x128 .f32) (p : Fin 4000) (q : Fin 128) :
    Gen.k0_pay1 (F := Ideal) x0 x1 x2 x3 (ix2 p q)
      = (∑ k : Fin 128, Ideal.div (x0 (ix2 p k)) (x1 (ix2 p (0 : Fin 1))) * x2 (ix2 k q)) + x3 (ix2 (0 : Fin 1) q) := by
  unfold Gen.k0_pay1
  refine (addf_apply _ _ (ix2 p q)).trans ?_
  refine congrArg₂ (· + ·) ?_ ?_
  · refine (Cert.LibPlainContract.matmul_plain_apply 4000 128 128 none _ _ p q).trans ?_
    refine Finset.sum_congr rfl fun k _ => ?_
    refine congrArg₂ (· * ·) ?_ ?_
    · refine (divf_apply _ _ (ix2 p k)).trans ?_
      refine congrArg₂ Ideal.div ?_ ?_
      · rw [shapeCast_self]
      · refine (Cert.Lib.Keepdims.broadcastTo_a1_ab_apply _ _ p k).trans ?_
        rw [shapeCast_self]
    · rw [shapeCast_self]
  · refine (broadcastTo_1b_ab_apply _ _ p q).trans ?_
    rw [shapeCast_self]

end Cert.GcnPayload

end
-- ==== Proof.Layer.lean ====
/-
  The graph-convolution layer's result as one function, and the law that joins the two ways of normalising a message.

  With A the aggregated messages (one row of 128 features per node), n the per-node incoming norm, W the weight matrix
  and b the bias, the layer's output at node p and output feature q is

      out[p, q] = (sum over k < 128 of (A[p, k] / n[p]) * W[q, k]) + b[q]

  over the extended reals, where a quotient is the exact one with its conventions at a zero divisor.

  A message is a source node's feature divided by that node's outgoing norm. One program forms the reciprocal 1 / y of
  the norm first and multiplies, the other divides: x * (1 / y) against x / y. For y different from 0 both are
  x * y⁻¹ whatever extended real x is (1 * y⁻¹ = y⁻¹); at y = 0 they differ (0 * (1 / 0) = 0 * ⊤ = 0, while 0 / 0 = ⊥),
  which is why the norms are taken different from 0.
-/
import Idealize.ShloMosaic.PureOps.Ideal.Laws
import Idealize.ShloMosaic.Lib.ValueIdx

noncomputable section

namespace Cert.GcnLayer

open Idealize.ShloMosaic Idealize.ShloMosaic.ValueIdx

/-- One entry of the layer's output, at node p and output feature q. -/
def entry (A : FVec Ideal ⟨2, ![100000, 128]⟩ .f32) (n : FVec Ideal ⟨1, ![100000]⟩ .f32)
    (W : FVec Ideal ⟨2, ![128, 128]⟩ .f32) (b : FVec Ideal ⟨1, ![128]⟩ .f32) (p : Fin 100000) (q : Fin 128) : EReal :=
  (∑ k : Fin 128, Ideal.div (A (ix2 p k)) (n (ix1 p)) * W (ix2 q k)) + b (ix1 q)

/-- The layer's output array: `entry` at every index. -/
def layer (A : FVec Ideal ⟨2, ![100000, 128]⟩ .f32) (n : FVec Ideal ⟨1, ![100000]⟩ .f32)
    (W : FVec Ideal ⟨2, ![128, 128]⟩ .f32) (b : FVec Ideal ⟨1, ![128]⟩ .f32) : FVec Ideal ⟨2, ![100000, 128]⟩ .f32 :=
  fun i => entry A n W b (i 0) (i 1)

theorem layer_apply (A : FVec Ideal ⟨2, ![100000, 128]⟩ .f32) (n : FVec Ideal ⟨1, ![100000]⟩ .f32)
    (W : FVec Ideal ⟨2, ![128, 128]⟩ .f32) (b : FVec Ideal ⟨1, ![128]⟩ .f32) (p : Fin 100000) (q : Fin 128) :
    layer A n W b (ix2 p q) = entry A n W b p q := rfl

/-- The word of 1.0 denotes the real 1. -/
theorem ofBits_one : Ideal.ofBits .f32 0x3F800000#32 = 1 := by
  simp [Ideal.ofBits, Ideal.ieee, -EReal.coe_mul]; norm_num

/-- Multiplying by the reciprocal of a divisor different from 0 is dividing by it, for every extended real x. -/
theorem mul_recip_eq_div (x y : EReal) (hy : y ≠ 0) : x * Ideal.div 1 y = Ideal.div x y := by
  unfold Ideal.div
  rw [if_neg hy, if_neg hy, one_mul]

end Cert.GcnLayer

end
-- ==== Proof.StagedLayer.lean ====
/-
  The layer over the operands as the kernel stages them.

  The kernel does not read the incoming norms, the weights and the bias as the arguments give them: it reads the norms
  as a 100000-by-1 column, the weights transposed (and rounded to a narrower format, the identity on exact values),
  and the bias as a 1-by-128 row. Over such operands the layer's entry at (p, q) is

      (sum over k < 128 of (A[p, k] / col[p, 0]) * wt[k, q]) + row[0, q],

  and with col[p, 0] = n[p], wt[k, q] = W[q, k], row[0, q] = b[q] this is the layer's function of A, n, W, b.
-/
import proofs.«150497_j22565758173846_2_alg».proof.Proof.Layer
import proofs.«150497_j22565758173846_2_alg».proof.Proof.LibKeepdims
import Idealize.ShloMosaic.Lib.ValueLayout

noncomputable section

namespace Cert.GcnStaged

open Idealize.ShloMosaic Idealize.ShloMosaic.ValueIdx Cert.GcnLayer

/-- The layer over a norm column, transposed weights and a bias row. -/
def stagedLayer (A : FVec Ideal ⟨2, ![100000, 128]⟩ .f32) (col : FVec Ideal ⟨2, ![100000, 1]⟩ .f32)
    (wt : FVec Ideal ⟨2, ![128, 128]⟩ .bf16) (row : FVec Ideal ⟨2, ![1, 128]⟩ .f32) : FVec Ideal ⟨2, ![100000, 128]⟩ .f32 :=
  fun i => (∑ k : Fin 128, Ideal.div (A (ix2 (i 0) k)) (col (ix2 (i 0) (0 : Fin 1))) * wt (ix2 k (i 1)))
    + row (ix2 (0 : Fin 1) (i 1))

theorem stagedLayer_apply (A : FVec Ideal ⟨2, ![100000, 128]⟩ .f32) (col : FVec Ideal ⟨2, ![100000, 1]⟩ .f32)
    (wt : FVec Ideal ⟨2, ![128, 128]⟩ .bf16) (row : FVec Ideal ⟨2, ![1, 128]⟩ .f32) (p : Fin 100000) (q : Fin 128) :
    stagedLayer A col wt row (ix2 p q)
      = (∑ k : Fin 128, Ideal.div (A (ix2 p k)) (col (ix2 p (0 : Fin 1))) * wt (ix2 k q)) + row (ix2 (0 : Fin 1) q) := rfl

/-- Staging the plain arguments — the norms reshaped to a column, the weights transposed and narrowed, the bias
    reshaped to a row — gives the layer's own function. -/
theorem stagedLayer_eq (hc1 : (⟨1, ![100000]⟩ : Shape).ShapeCasts ⟨2, ![100000, 1]⟩)
    (hc2 : (⟨1, ![128]⟩ : Shape).ShapeCasts ⟨2, ![1, 128]⟩)
    (ht : (⟨2, ![128, 128]⟩ : Shape).Transposes [1, 0] ⟨2, ![128, 128]⟩) (hb : FTy.bf16.bits < FTy.f32.bits)
    (A : FVec Ideal ⟨2, ![100000, 128]⟩ .f32) (n : FVec Ideal ⟨1, ![100000]⟩ .f32)
    (W : FVec Ideal ⟨2, ![128, 128]⟩ .f32) (b : FVec Ideal ⟨1, ![128]⟩ .f32) :
    stagedLayer A (shapeCast ⟨2, ![100000, 1]⟩ n hc1) (truncf .bf16 (transpose ⟨2, ![128, 128]⟩ [1, 0] W ht) hb)
        (shapeCast ⟨2, ![1, 128]⟩ b hc2) = layer A n W b := by
  funext i
  obtain ⟨p, q, rfl⟩ : ∃ (p : Fin 100000) (q : Fin 128), i = ix2 p q := ⟨i 0, i 1, eq_ix2 i⟩
  rw [stagedLayer_apply, layer_apply]
  unfold entry
  refine congrArg₂ (· + ·) (Finset.sum_congr rfl fun k _ => ?_) ?_
  · refine congrArg₂ (· * ·) (congrArg (Ideal.div _) ?_) ?_
    · exact Cert.Lib.Keepdims.shapeCast_a_a1_apply n hc1 p 0
    · exact transpose_ix2_apply W ht k q
  · exact shapeCast_a_1a_apply b hc2 0 q

end Cert.GcnStaged

end
-- ==== Proof.BlockEntry.lean ====
/-
  The body's stored value is the staged layer's entry, when its blocks are pieces of whole arrays.

  Suppose row p of the block of aggregated messages is row r of a whole array A, the block's norm at row p is the whole
  column's at row r, and the weights and the bias row are read whole. Then what the body stores at (p, q) is the staged
  layer's entry at (r, q): the two are the same sum, term by term.
-/
import proofs.«150497_j22565758173846_2_alg».proof.Proof.Payload
import proofs.«150497_j22565758173846_2_alg».proof.Proof.StagedLayer

noncomputable section

namespace Cert.GcnPayload

open Idealize.ShloMosaic Idealize.ShloMosaic.ValueIdx Cert.KernelIdeal Cert.GcnStaged

theorem stored_eq_staged (A : FVec Ideal ⟨2, ![100000, 128]⟩ .f32) (col : FVec Ideal ⟨2, ![100000, 1]⟩ .f32)
    (wt : FVec Ideal ⟨2, ![128, 128]⟩ .bf16) (row : FVec Ideal ⟨2, ![1, 128]⟩ .f32)
    (x0 : FVec Ideal S4000x128 .f32) (x1 : FVec Ideal S4000x1 .f32) (x2 : FVec Ideal S128x128 .bf16)
    (x3 : FVec Ideal S1x128 .f32) (r : Fin 100000) (p : Fin 4000) (q : Fin 128)
    (h0 : ∀ k : Fin 128, x0 (ix2 p k) = A (ix2 r k))
    (h1 : x1 (ix2 p (0 : Fin 1)) = col (ix2 r (0 : Fin 1)))
    (h2 : ∀ k : Fin 128, x2 (ix2 k q) = wt (ix2 k q))
    (h3 : x3 (ix2 (0 : Fin 1) q) = row (ix2 (0 : Fin 1) q)) :
    Gen.k0_pay1 (F := Ideal) x0 x1 x2 x3 (ix2 p q) = stagedLayer A col wt row (ix2 r q) := by
  rw [stored_apply, stagedLayer_apply, h1, h3]
  refine congrArg₂ (· + ·) (Finset.sum_congr rfl fun k _ => ?_) rfl
  rw [h0 k, h2 k]

end Cert.GcnPayload

end
-- ==== Proof.KernelBlocks.lean ====
/-
  From the kernel's blocks to its output array.

  The grid has 25 points. At point t the kernel reads rows 4000 t .. 4000 t + 3999 of the aggregated messages and of
  the norm column, the whole transposed weights and the whole bias row, and writes rows 4000 t .. 4000 t + 3999 of the
  output. What it writes at row p of the block and output feature q is the staged layer's entry at row 4000 t + p,
  because every operand it reads is the matching piece of the whole array. Row r of the output is written by point
  r / 4000, so the 25 blocks cover the output, and the output array ends as the staged layer of the four arrays the
  region found.
-/
import proofs.«150497_j22565758173846_2_alg».proof.Proof.Gen.KernelIdeal.Value
import proofs.«150497_j22565758173846_2_alg».proof.Proof.Payload
import proofs.«150497_j22565758173846_2_alg».proof.Proof.BlockEntry
import proofs.«150497_j22565758173846_2_alg».proof.Proof.StagedLayer

set_option maxRecDepth 16384

noncomputable section

namespace Cert.GcnKernel

open Cert.KernelIdeal Cert.KernelIdeal.Gen Cert.KernelIdeal.Value Idealize.ShloMosaic Idealize.ShloMosaic.TcCoe
  Idealize.SL.Sem Idealize.ShloMosaic.ValueIdx Cert.GcnStaged
open Idealize.ShloMosaic.Pipeline (Dat)

variable (m : (ℓ : Loc nD τ sig) → Buf (Elt Ideal) ℓ)

theorem origin_eq : (![0, 0] : Fin 2 → Nat) = fun _ => 0 := funext fun a => by fin_cases a <;> rfl

/-- The index maps over the 25 grid points: the row-blocked windows (aggregated messages, norm column, output) sit at
    block row t, the weights and the bias at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window w's block at point t, read off any contents W of the region's buffers: the entries of W's array for that
    window at the block's indices. -/
def blockOf (c : Dev nD) (W : (b : Ref sig .tc) → Buf (Elt Ideal) ((c : Thread nD τ).loc b)) (w : Fin cfg0.W)
    (t : Fin cfg0.N) : ((cfg0.win w).xblock (cfg0.grid.coords t)).Idx → Elt Ideal (cfg0.win w).elt :=
  ((cfg0.win w).blk t).view.read (Elt Ideal) (W (Pipeline.arrRef spec0 w))

/-- The blocks the run reads are those of the contents the region found. -/
theorem iblk_eq_blockOf (c : Dev nD) (w : Fin cfg0.W) (t : Fin cfg0.N) : iblk m c w t = blockOf c (V m c) w t := rfl

/-- At point t, for ANY contents W of the region's buffers: the body's result over the four windows' blocks of W, written
    back through the output window, is block t of the staged layer of W's four arrays. -/
theorem written_generic (c : Dev nD) (t : Fin cfg0.N)
    (W : (b : Ref sig .tc) → Buf (Elt Ideal) ((c : Thread nD τ).loc b)) :
    (cfg0.win 4).cut (grid0.coords t)
        (out0_4 (blockOf c W 0 t) (blockOf c W 1 t) (blockOf c W 2 t) (blockOf c W 3 t))
      = ((cfg0.win 4).blk t).view.read (Elt Ideal)
          (stagedLayer (W main_v21) (W main_v22) (W main_v25) (W main_v23)) := by
  unfold out0_4
  rw [View.canon_unit_zero origin_eq]
  simp only [View.ld_unit_zero (S := S4000x128) origin_eq, View.ld_unit_zero (S := S4000x1) origin_eq,
    View.ld_unit_zero (S := S128x128) origin_eq, View.ld_unit_zero (S := S1x128) origin_eq]
  obtain ⟨a0, a1, b0, b1, c0, c1, d0, d1, e0, e1⟩ := index_facts t
  have ht : t.val < 25 := lt_of_lt_of_eq t.isLt N_0
  funext j
  obtain ⟨p, q, rfl⟩ : ∃ (p : Fin 4000) (q : Fin 128), j = ix2 p q := ⟨j 0, j 1, eq_ix2 j⟩
  have hp : p.val < 4000 := p.isLt
  have hq : q.val < 128 := q.isLt
  have hrow : t.val * 4000 + p.val < 100000 := by omega
  show Gen.k0_pay1 (F := Ideal) (blockOf c W 0 t) (blockOf c W 1 t) (blockOf c W 2 t) (blockOf c W 3 t) (ix2 p q)
    = stagedLayer (W main_v21) (W main_v22) (W main_v25) (W main_v23)
        (((cfg0.win 4).blk t).view.emb (ix2 p q))
  have hemb : ((cfg0.win 4).blk t).view.emb (ix2 p q) = ix2 (⟨t.val * 4000 + p.val, hrow⟩ : Fin 100000) q := by
    funext a; apply Fin.ext
    match a with
    | ⟨0, _⟩ => show win0_4.index t (0 : Fin 2) * 4000 + 1 * p.val = t.val * 4000 + p.val; omega
    | ⟨1, _⟩ => show win0_4.index t (1 : Fin 2) * 128 + 1 * q.val = q.val; omega
  rw [hemb]
  -- each operand the body reads at this point is the matching piece of its whole array
  have r0 : ∀ k : Fin 128, blockOf c W 0 t (ix2 p k)
      = (W main_v21 : S100000x128.Idx → EReal) (ix2 (⟨t.val * 4000 + p.val, hrow⟩ : Fin 100000) k) := by
    intro k
    have hk : k.val < 128 := k.isLt
    have he : ((cfg0.win 0).blk t).view.emb (ix2 p k) = ix2 (⟨t.val * 4000 + p.val, hrow⟩ : Fin 100000) k := by
      funext a; apply Fin.ext
      match a with
      | ⟨0, _⟩ => show win0_0.index t (0 : Fin 2) * 4000 + 1 * p.val = t.val * 4000 + p.val; omega
      | ⟨1, _⟩ => show win0_0.index t (1 : Fin 2) * 128 + 1 * k.val = k.val; omega
    show (W main_v21 : S100000x128.Idx → EReal) (((cfg0.win 0).blk t).view.emb (ix2 p k)) = _
    rw [he]
  have r1 : blockOf c W 1 t (ix2 p (0 : Fin 1))
      = (W main_v22 : S100000x1.Idx → EReal) (ix2 (⟨t.val * 4000 + p.val, hrow⟩ : Fin 100000) (0 : Fin 1)) := by
    have he : ((cfg0.win 1).blk t).view.emb (ix2 p (0 : Fin 1))
        = ix2 (⟨t.val * 4000 + p.val, hrow⟩ : Fin 100000) (0 : Fin 1) := by
      funext a; apply Fin.ext
      match a with
      | ⟨0, _⟩ => show win0_1.index t (0 : Fin 2) * 4000 + 1 * p.val = t.val * 4000 + p.val; omega
      | ⟨1, _⟩ => show win0_1.index t (1 : Fin 2) * 1 + 1 * 0 = 0; omega
    show (W main_v22 : S100000x1.Idx → EReal) (((cfg0.win 1).blk t).view.emb (ix2 p (0 : Fin 1))) = _
    rw [he]
  have r2 : ∀ k : Fin 128, blockOf c W 2 t (ix2 k q) = (W main_v25 : S128x128.Idx → EReal) (ix2 k q) := by
    intro k
    have hk : k.val < 128 := k.isLt
    have he : ((cfg0.win 2).blk t).view.emb (ix2 k q) = ix2 k q := by
      funext a; apply Fin.ext
      match a with
      | ⟨0, _⟩ => show win0_2.index t (0 : Fin 2) * 128 + 1 * k.val = k.val; omega
      | ⟨1, _⟩ => show win0_2.index t (1 : Fin 2) * 128 + 1 * q.val = q.val; omega
    show (W main_v25 : S128x128.Idx → EReal) (((cfg0.win 2).blk t).view.emb (ix2 k q)) = _
    rw [he]
  have r3 : blockOf c W 3 t (ix2 (0 : Fin 1) q) = (W main_v23 : S1x128.Idx → EReal) (ix2 (0 : Fin 1) q) := by
    have he : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 128 + 1 * q.val = q.val; omega
    show (W main_v23 : S1x128.Idx → EReal) (((cfg0.win 3).blk t).view.emb (ix2 (0 : Fin 1) q)) = _
    rw [he]
  exact Cert.GcnPayload.stored_eq_staged (W main_v21) (W main_v22) (W main_v25) (W main_v23)
    (blockOf c W 0 t) (blockOf c W 1 t) (blockOf c W 2 t) (blockOf c W 3 t) ⟨t.val * 4000 + p.val, hrow⟩ p q r0 r1 r2 r3

/-- What point t writes back is block t of the staged layer of the arrays the region found. -/
theorem flushed_eq (c : Dev nD) (t : Fin cfg0.N) :
    (dats m 0 c).flushed 4 t = ((cfg0.win 4).blk t).view.read (Elt Ideal)
      (stagedLayer (V m c main_v21) (V m c main_v22) (V m c main_v25) (V m c main_v23)) := by
  rw [flushed4, iblk_eq_blockOf m c 0 t, iblk_eq_blockOf m c 1 t, iblk_eq_blockOf m c 2 t, iblk_eq_blockOf m c 3 t]
  exact written_generic c t (V m c)

/-- An index of the output array is in point t's block when each coordinate is in the block's range on its axis. -/
theorem mem_block (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v26).slice (win0_4.rect t)).set ↔ _
  rw [View.set_slice_whole, Rect.mem_set_unit]
  exact Iff.rfl

/-- Every index of the output array lies in the block of the point its row divided by 4000 names. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- The output array after the run: the staged layer of the four arrays the region found. -/
theorem final_staged (c : Dev nD) :
    (dats m 0 c).arrAt 4 cfg0.N = stagedLayer (V m c main_v21) (V m c main_v22) (V m c main_v25) (V m c main_v23) :=
  (dats m 0 c).arrAt_eq_of_cover 4 _ (fun t _ => flushed_eq m c t) covered

end Cert.GcnKernel

end
-- ==== Proof.KernelArray.lean ====
/-
  The kernel's run: its output array is the layer's function of its aggregated messages and the arguments.

  The output array ends as the staged layer of the four arrays the region found. Those are the aggregated messages, the
  incoming norms as a column, the weights transposed and narrowed, and the bias as a row, each computed on the host from
  the argument arrays; the staged layer of them is the layer's own function. Every weakly fair execution of the program
  ends with the result at that array and the arguments unchanged.
-/
import proofs.«150497_j22565758173846_2_alg».proof.Proof.HostPrefix
import proofs.«150497_j22565758173846_2_alg».proof.Proof.KernelBlocks

noncomputable section

namespace Cert.GcnKernel

open Cert.KernelIdeal Cert.KernelIdeal.Gen Cert.KernelIdeal.Value Idealize.ShloMosaic Idealize.ShloMosaic.TcCoe
  Idealize.SL.Sem Cert.GcnStaged Cert.GcnLayer

variable (m : (ℓ : Loc nD τ sig) → Buf (Elt Ideal) ℓ) (ρ : Dev nD → PrngReg)

/-- The output array after the run, as a function of the argument arrays. -/
theorem final_args (c : Dev nD) :
    (dats m 0 c).arrAt 4 cfg0.N
      = layer (aggregated (m ((c.tc : Thread nD τ).loc main_arg0)) (m ((c.tc : Thread nD τ).loc main_arg2))
            (m ((c.tc : Thread nD τ).loc main_arg3)) (m ((c.tc : Thread nD τ).loc main_arg4)))
          (m ((c.tc : Thread nD τ).loc main_arg1)) (m ((c.tc : Thread nD τ).loc main_arg5))
          (m ((c.tc : Thread nD τ).loc main_arg6)) := by
  rw [final_staged, V_aggregated, V_normColumn, V_weightsT, V_biasRow]
  exact stagedLayer_eq shapeCasts_S100000_S100000x1 shapeCasts_S128_S1x128 transposes_S128x128_S128x128_1_0
    bitsLt_bf16_f32 _ _ _ _

/-- Every weakly fair execution ends with the result at the layer's function of the arguments, the arguments unchanged. -/
theorem run : θ_run defs (onTc (τ := τ) (main (F := Ideal))) ⟨m, fun _ => 0, ρ⟩ fun r => ∀ c : Dev nD,
      r.2.mem ((c.tc : Thread nD τ).loc main_v26)
        = layer (aggregated (m ((c.tc : Thread nD τ).loc main_arg0)) (m ((c.tc : Thread nD τ).loc main_arg2))
              (m ((c.tc : Thread nD τ).loc main_arg3)) (m ((c.tc : Thread nD τ).loc main_arg4)))
            (m ((c.tc : Thread nD τ).loc main_arg1)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final_args m c), (h c).2⟩) (run_blocks m ρ)

end Cert.GcnKernel

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.Messages.lean ====
/-
  The two programs' message arrays agree when no outgoing norm is zero.

  Edge e carries, for feature f, the source node's feature divided by the source node's outgoing norm, the source node
  being the row r that the edge's start index names (read signed and clamped into the table). One program gathers the
  features and the reciprocals 1 / norm separately at the same index column and multiplies,
  feat[r, f] * (1 / norm[r]); the other divides the whole feature table by the norms first and gathers,
  feat[r, f] / norm[r]. Both gathers read the same row r, so entry by entry the equality is the law
  x * (1 / y) = x / y for y different from 0.
-/
import Idealize.ShloMosaic.Lib.Pipeline.Value
import proofs.«150497_j22565758173846_2_alg».proof.Proof.Layer
import proofs.«150497_j22565758173846_2_alg».proof.Proof.LibGatherRows
import proofs.«150497_j22565758173846_2_alg».proof.Proof.LibKeepdims

noncomputable section

namespace Cert.GcnMessages

open Idealize.ShloMosaic Idealize.ShloMosaic.ValueIdx Cert.LibGatherRows Cert.GcnLayer

/-- Gathered features times gathered reciprocal norms, spread over the features, is the gather of the quotient table. -/
theorem messages_eq
    (wf2 : GatherDims.WF ⟨2, ![100000, 128]⟩ ⟨2, ![1600000, 1]⟩ ⟨2, ![1600000, 128]⟩ [1] [0] [] [0] [] 1 ![1, 128])
    (wf1 : GatherDims.WF ⟨1, ![100000]⟩ ⟨2, ![1600000, 1]⟩ ⟨1, ![1600000]⟩ [] [0] [] [0] [] 1 ![1])
    (hb0 : (⟨0, ![]⟩ : Shape).BroadcastsInDim ⟨1, ![100000]⟩ (![] : Fin 0 → Fin 1))
    (hb1 : (⟨1, ![1600000]⟩ : Shape).BroadcastsInDim ⟨2, ![1600000, 1]⟩ (![0] : Fin 1 → Fin 2))
    (hb2 : (⟨2, ![1600000, 1]⟩ : Shape).BroadcastsInDim ⟨2, ![1600000, 128]⟩ (![0, 1] : Fin 2 → Fin 2))
    (hb3 : (⟨1, ![100000]⟩ : Shape).BroadcastsInDim ⟨2, ![100000, 1]⟩ (![0] : Fin 1 → Fin 2))
    (hb4 : (⟨2, ![100000, 1]⟩ : Shape).BroadcastsInDim ⟨2, ![100000, 128]⟩ (![0, 1] : Fin 2 → Fin 2))
    (feat : FVec Ideal ⟨2, ![100000, 128]⟩ .f32) (norm : FVec Ideal ⟨1, ![100000]⟩ .f32)
    (idx : IVec ⟨2, ![1600000, 1]⟩ 32) (hnorm : ∀ n : Fin 100000, norm (ix1 n) ≠ 0) :
    mulf (Host.gather (rowsDims 100000 128 1600000 wf2) feat idx)
        (broadcastInDim ⟨2, ![1600000, 128]⟩ ![0, 1] hb2 (broadcastInDim ⟨2, ![1600000, 1]⟩ ![0] hb1
          (Host.gather (entriesDims 100000 1600000 wf1)
            (Host.divf (broadcastInDim ⟨1, ![100000]⟩ ![] hb0 (constant (F := Ideal) ⟨0, ![]⟩ .f32 0x3F800000#32)) norm) idx)))
      = Host.gather (rowsDims 100000 128 1600000 wf2)
          (Host.divf feat (broadcastInDim ⟨2, ![100000, 128]⟩ ![0, 1] hb4 (broadcastInDim ⟨2, ![100000, 1]⟩ ![0] hb3 norm))) idx := by
  funext j
  obtain ⟨e, f, rfl⟩ : ∃ (e : Fin 1600000) (f : Fin 128), j = ix2 e f := ⟨j 0, j 1, eq_ix2 j⟩
  have hN : 0 < 100000 := by decide
  -- the kernel's side: feat[r, f] * (1 / norm[r])
  have hl : mulf (Host.gather (rowsDims 100000 128 1600000 wf2) feat idx)
        (broadcastInDim ⟨2, ![1600000, 128]⟩ ![0, 1] hb2 (broadcastInDim ⟨2, ![1600000, 1]⟩ ![0] hb1
          (Host.gather (entriesDims 100000 1600000 wf1)
            (Host.divf (broadcastInDim ⟨1, ![100000]⟩ ![] hb0 (constant (F := Ideal) ⟨0, ![]⟩ .f32 0x3F800000#32)) norm) idx))) (ix2 e f)
      = feat (ix2 (clampRow hN idx e) f) * Ideal.div 1 (norm (ix1 (clampRow hN idx e))) := by
    rw [mulf_apply, gather_rows_apply hN wf2, Cert.Lib.Keepdims.broadcastInDim_a1_ab_apply,
      Cert.Lib.Keepdims.broadcastInDim_a_a1_apply, gather_entries_apply hN wf1]
    show feat (ix2 (clampRow hN idx e) f) * Ideal.div
        (broadcastInDim ⟨1, ![100000]⟩ ![] hb0 (constant (F := Ideal) ⟨0, ![]⟩ .f32 0x3F800000#32) (ix1 (clampRow hN idx e)))
        (norm (ix1 (clampRow hN idx e))) = _
    rw [broadcastInDim_apply _ hb0 _ _ ix0 (fun a => a.elim0), constant_apply, ofBits_one]
  -- the reference's side: feat[r, f] / norm[r]
  have hr : Host.gather (rowsDims 100000 128 1600000 wf2)
        (Host.divf feat (broadcastInDim ⟨2, ![100000, 128]⟩ ![0, 1] hb4 (broadcastInDim ⟨2, ![100000, 1]⟩ ![0] hb3 norm))) idx (ix2 e f)
      = Ideal.div (feat (ix2 (clampRow hN idx e) f)) (norm (ix1 (clampRow hN idx e))) := by
    rw [gather_rows_apply hN wf2]
    show Ideal.div (feat (ix2 (clampRow hN idx e) f))
        (broadcastInDim ⟨2, ![100000, 128]⟩ ![0, 1] hb4 (broadcastInDim ⟨2, ![100000, 1]⟩ ![0] hb3 norm) (ix2 (clampRow hN idx e) f)) = _
    rw [Cert.Lib.Keepdims.broadcastInDim_a1_ab_apply, Cert.Lib.Keepdims.broadcastInDim_a_a1_apply]
  rw [hl, hr]
  exact mul_recip_eq_div _ _ (hnorm _)

end Cert.GcnMessages

end
-- ==== Proof.Aggregated.lean ====
/-
  The two programs aggregate the same array when no outgoing norm is zero.

  Both programs sum their messages into the edges' destination nodes with the same scatter-add, from zero, at the same
  column of destination indices; and their message arrays agree entry by entry when every outgoing norm is different
  from 0 (feature times reciprocal norm against feature divided by norm, at the same gathered row). So the aggregated
  arrays are one array.
-/
import proofs.«150497_j22565758173846_2_alg».proof.Proof.HostPrefix
import proofs.«150497_j22565758173846_2_alg».proof.Proof.Messages
import proofs.«150497_j22565758173846_2_alg».proof.Proof.Gen.ReferenceIdeal.Read

noncomputable section

namespace Cert.GcnAggregated

open Idealize.ShloMosaic Idealize.ShloMosaic.ValueIdx

/-- The kernel's messages are the reference's gathered quotient table. -/
theorem messages_eq_reference (x0 : FVec Ideal ⟨2, ![100000, 128]⟩ .f32) (x2 : FVec Ideal ⟨1, ![100000]⟩ .f32)
    (x3 : IVec ⟨1, ![1600000]⟩ 32) (h : ∀ n : Fin 100000, x2 (ix1 n) ≠ 0) :
    Cert.GcnKernel.messages x0 x2 x3 = Cert.ReferenceIdeal.Read.val_main_v9 (F := Ideal) x0 x2 x3 :=
  Cert.GcnMessages.messages_eq
    Cert.KernelIdeal.Gen.gather_S100000x128_S1600000x1_S1600000x128_1_0_n_n_0_1_1128_wf
    Cert.KernelIdeal.Gen.gather_S100000_S1600000x1_S1600000_n_0_n_n_0_1_1_wf
    Cert.KernelIdeal.Gen.bcast_S_S100000 Cert.KernelIdeal.Gen.bcast_S1600000_S1600000x1_0
    Cert.KernelIdeal.Gen.bcast_S1600000x1_S1600000x128_0_1
    Cert.ReferenceIdeal.Gen.bcast_S100000_S100000x1_0 Cert.ReferenceIdeal.Gen.bcast_S100000x1_S100000x128_0_1
    x0 x2 (Cert.GcnKernel.indexColumn x3) h

/-- The kernel's aggregated array is the reference's. -/
theorem aggregated_eq_reference (x0 : FVec Ideal ⟨2, ![100000, 128]⟩ .f32) (x2 : FVec Ideal ⟨1, ![100000]⟩ .f32)
    (x3 x4 : IVec ⟨1, ![1600000]⟩ 32) (h : ∀ n : Fin 100000, x2 (ix1 n) ≠ 0) :
    Cert.GcnKernel.aggregated x0 x2 x3 x4 = Cert.ReferenceIdeal.Read.val_main_v12 (F := Ideal) x0 x2 x3 x4 := by
  unfold Cert.GcnKernel.aggregated
  rw [messages_eq_reference x0 x2 x3 h]
  rfl

end Cert.GcnAggregated

end
-- ==== Proof.ReferenceArray.lean ====
/-
  The reference's result is the layer's function of its own aggregated array.

  After the scatter-add the reference divides row p of the aggregated array A by the incoming norm of node p, takes the
  product with the transposed weights, and adds the bias spread over the rows. Read one operation at a time at index
  (p, q): the product is the sum over k of (A[p, k] / n[p]) * Wᵀ[k, q], and Wᵀ[k, q] = W[q, k]; the bias term is b[q].
-/
import proofs.«150497_j22565758173846_2_alg».proof.Proof.Gen.ReferenceIdeal.Read
import proofs.«150497_j22565758173846_2_alg».proof.Proof.Layer

noncomputable section

namespace Cert.GcnReference

open Idealize.ShloMosaic Idealize.ShloMosaic.ValueIdx Cert.ReferenceIdeal Cert.ReferenceIdeal.Read Cert.GcnLayer

/-- The reference's last stage is `layer` of its aggregated array, the incoming norms, the weights and the bias. -/
theorem result_eq (x0 : FVec Ideal S100000x128 .f32) (x1 x2 : FVec Ideal S100000 .f32) (x3 x4 : IVec S1600000 32)
    (x5 : FVec Ideal S128x128 .f32) (x6 : FVec Ideal S128 .f32) :
    val_main_v20 (F := Ideal) x0 x1 x2 x3 x4 x5 x6 = layer (val_main_v12 (F := Ideal) x0 x2 x3 x4) x1 x5 x6 := by
  funext i
  obtain ⟨p, q, rfl⟩ : ∃ (p : Fin 100000) (q : Fin 128), i = ix2 p q := ⟨i 0, i 1, eq_ix2 i⟩
  have e1 : ∀ k : Fin 128, lidx_main_v17 (ix2 p q) k = ix2 p k := fun k =>
    funext fun a => Fin.ext (by match a with | ⟨0, _⟩ => rfl | ⟨1, _⟩ => rfl)
  have e2 : ∀ k : Fin 128, idx_main_v16 (ridx_main_v17 (ix2 p q) k) = ix2 q k := fun k =>
    funext fun a => Fin.ext (by match a with | ⟨0, _⟩ => rfl | ⟨1, _⟩ => rfl)
  have e3 : ∀ k : Fin 128, idx_main_v13 (idx_main_v14 (ix2 p k)) = ix1 p := fun k =>
    funext fun a => Fin.ext (by match a with | ⟨0, _⟩ => rfl)
  have e4 : idx_main_v18 (idx_main_v19 (ix2 p q)) = ix1 q :=
    funext fun a => Fin.ext (by match a with | ⟨0, _⟩ => rfl)
  rw [layer_apply, val_main_v20_apply, val_main_v17_apply, val_main_v19_apply, val_main_v18_apply, e4]
  unfold entry
  refine congrArg₂ (· + ·) (Finset.sum_congr rfl fun k _ => ?_) rfl
  rw [e1, val_main_v16_apply, e2, val_main_v15_apply, val_main_v14_apply, val_main_v13_apply, e3]
  rfl

end Cert.GcnReference

end
-- ==== Proof.NonzeroNorm.lean ====
/-
  The precondition gives: no outgoing norm is zero.

  The precondition is one truth value, the conjunction of "every entry is finite" for the five float inputs and of
  "every outgoing norm is different from 0". Its last conjunct is a reduction by "and", over all 100000 nodes, of the
  entrywise comparison norm[n] ≠ 0; if the whole conjunction is true, so is that reduction, so is the comparison at
  every node, and the comparison on the extended reals is the plain inequality.
-/
import proofs.«150497_j22565758173846_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.GcnPre

open Idealize.ShloMosaic Idealize.ShloMosaic.ValueIdx Cert.Pre_finite_inputs

instance : Subsingleton S_.Idx := ⟨fun a b => funext fun d => d.elim0⟩

/-- If the precondition's truth value is 1 then the outgoing norm of every node n is different from 0. -/
theorem norm_ne_zero [Cert.Pre_finite_inputs.Facts]
    (a0 : FVec Ideal S100000x128 .f32) (a1 a2 : FVec Ideal S100000 .f32) (a3 a4 : IVec S1600000 32)
    (a5 : FVec Ideal S128x128 .f32) (a6 : FVec Ideal S128 .f32)
    (h : fn (F := Ideal) a0 a1 a2 a3 a4 a5 a6 = (fun _ => 1#1)) (n : Fin 100000) : a2 (ix1 n) ≠ 0 := by
  have h0 := congrFun h ix0
  dsimp only [fn, fn_part1] at h0
  obtain ⟨-, hall⟩ := IntOp.andi_eq_one.mp h0
  have hn := Host.reduce_andi_all _ _ _ _ _ hall (ix1 n)
  have hc : Ideal.cmp .une (a2 (ix1 n))
      (broadcastInDim S100000 ![] Facts.bcast_S_S100000 (constant (F := Ideal) S_ .f32 0x00000000#32) (ix1 n)) = 1#1 := hn
  rw [broadcastInDim_apply _ Facts.bcast_S_S100000 _ _ ix0 (fun a => a.elim0), constant_apply, Ideal.ofBits_zero_f32] at hc
  intro hz
  rw [hz] at hc
  simp [Ideal.cmp] at hc

end Cert.GcnPre

end
-- ==== Proof.lean ====
/-
  A graph-convolution layer on 100000 nodes, 1600000 edges and 128 features: a kernel against its reference, equal over
  the extended reals.

  Both programs send along each edge the source node's feature row divided by the source node's outgoing norm, sum the
  messages arriving at each node, divide each node's sum by its incoming norm, multiply by the weights and add the bias:

      out[p, q] = (sum over k of (A[p, k] / in_norm[p]) * W[q, k]) + b[q],      A = the aggregated messages.

  They differ in two ways. The reference divides the whole feature table by the outgoing norms and then gathers the
  sources' rows, feat[s, f] / out_norm[s]; the kernel's program gathers the features and the reciprocals 1 / out_norm
  separately and multiplies, feat[s, f] * (1 / out_norm[s]). For out_norm[s] different from 0 the two are one extended
  real, x * y⁻¹; at out_norm[s] = 0 and feat[s, f] = 0 they are 0 * ⊤ = 0 against 0 / 0 = ⊥, which is why the
  precondition takes every outgoing norm different from 0, the domain of the reference's own division. The second
  difference is only arrangement: the reference computes the last step on whole arrays on the host, the kernel in 25
  blocks of 4000 rows on the matrix unit with the weights transposed and narrowed beforehand (narrowing is the identity
  on exact values, and a matrix-unit product into a zero accumulator is the same sum as the host's product).

  The modules: Layer (the function above and the law x * (1 / y) = x / y off zero), Messages and Aggregated (the two
  message arrays, hence the two aggregated arrays, agree), NonzeroNorm (the precondition gives out_norm ≠ 0 at every
  node), Payload, StagedLayer, HostPrefix, KernelBlocks and KernelArray (the kernel's output array is the function above of
  its aggregated array), ReferenceArray (so is the reference's), and here the five claims.
-/
import proofs.«150497_j22565758173846_2_alg».proof.Defs
import proofs.«150497_j22565758173846_2_alg».proof.Proof.Gen.Kernel
import proofs.«150497_j22565758173846_2_alg».proof.Proof.Gen.Kernel.Skeleton
import proofs.«150497_j22565758173846_2_alg».proof.Proof.Gen.Kernel.Launch
import proofs.«150497_j22565758173846_2_alg».proof.Proof.Gen.Kernel.Points
import proofs.«150497_j22565758173846_2_alg».proof.Proof.Gen.Kernel.Frame
import proofs.«150497_j22565758173846_2_alg».proof.Proof.Gen.KernelIdeal
import proofs.«150497_j22565758173846_2_alg».proof.Proof.Gen.KernelIdeal.Skeleton
import proofs.«150497_j22565758173846_2_alg».proof.Proof.Gen.KernelIdeal.Launch
import proofs.«150497_j22565758173846_2_alg».proof.Proof.Gen.KernelIdeal.Points
import proofs.«150497_j22565758173846_2_alg».proof.Proof.Gen.KernelIdeal.Frame
import proofs.«150497_j22565758173846_2_alg».proof.Proof.Gen.ReferenceIdeal
import proofs.«150497_j22565758173846_2_alg».proof.Proof.Gen.Pre_finite_inputs
import proofs.«150497_j22565758173846_2_alg».proof.Proof.Gen.KernelIdeal.Value
import proofs.«150497_j22565758173846_2_alg».proof.Proof.Gen.ReferenceIdeal.Run
import proofs.«150497_j22565758173846_2_alg».proof.Proof.Gen.ReferenceIdeal.Read
import proofs.«150497_j22565758173846_2_alg».proof.Proof.KernelArray
import proofs.«150497_j22565758173846_2_alg».proof.Proof.Aggregated
import proofs.«150497_j22565758173846_2_alg».proof.Proof.ReferenceArray
import proofs.«150497_j22565758173846_2_alg».proof.Proof.NonzeroNorm
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does the kernel's program read at exact values. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The exact reading of the kernel's program rewrote nothing. -/
theorem preserves : Cert.preserves_Kernel_KernelIdeal := trivial

/-- From memories agreeing on the arguments, with every outgoing norm different from 0, both programs end at the layer's
    function of the one aggregated array and the arguments. -/
theorem algebraic : Cert.algebraic_KernelIdeal_ReferenceIdeal := by
  intro m ρ m' ρ' hpre hagree
  refine ⟨_, Cert.GcnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.GcnReference.result_eq,
    (hagree c).1, (hagree c).2.1, (hagree c).2.2.1, (hagree c).2.2.2.1, (hagree c).2.2.2.2.1,
    (hagree c).2.2.2.2.2.1, (hagree c).2.2.2.2.2.2]
  rw [Cert.GcnAggregated.aggregated_eq_reference _ _ _ _
    (fun n => Cert.GcnPre.norm_ne_zero _ _ _ _ _ _ _ (hpre c) n)]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
